-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x512x512 : Shape := ⟨3, ![3, 512, 512]⟩
abbrev S512x512 : Shape := ⟨2, ![512, 512]⟩
abbrev S_ : Shape := ⟨0, ![]⟩

class Facts : Prop where
  bcast_S_S3x512x512 : S_.BroadcastsInDim S3x512x512 (![] : Fin 0 → Fin S3x512x512.rank)
  reducesTo_S3x512x512_S_d0_1_2 : S3x512x512.ReducesTo [0, 1, 2] S_
  h_S_ : 0 < S_.numel

variable [Facts]

def fn {F : FTy → Type} [FloatOps F] (main_arg0 : FVec F S3x512x512 .f32) (main_arg1 : IVec S512x512 32) : IVec S_ 1 :=
  let main_v0 : FVec F S3x512x512 .f32 := Host.absf main_arg0
  let main_cst : FVec F S_ .f32 := constant S_ .f32 0x7F800000#32
  let main_v1 : FVec F S3x512x512 .f32 := broadcastInDim S3x512x512 ![] bcast_S_S3x512x512 main_cst
  let main_v2 : IVec S3x512x512 1 := cmpf .olt main_v0 main_v1
  let main_c : IVec S_ 1 := constantI S_ 1 1#1
  let main_v3 : IVec S_ 1 := (fun x v => Host.reduce IntOp.andi x v reducesTo_S3x512x512_S_d0_1_2 h_S_) main_v2 main_c
  main_v3
-- ==== Kernel.lean ====
abbrev S3x512x512 : Shape := ⟨3, ![3, 512, 512]⟩
abbrev S512x512 : Shape := ⟨2, ![512, 512]⟩
abbrev S50x3x512x512 : Shape := ⟨4, ![50, 3, 512, 512]⟩
abbrev S1x3x512x512 : Shape := ⟨4, ![1, 3, 512, 512]⟩
abbrev S1x512x512 : Shape := ⟨3, ![1, 512, 512]⟩

abbrev nBuf : Space → Nat
  | .hbm => 3
  | .vmem => 4
  | .smem => 0
  | _ => 0

abbrev bufTy : (tb : Table) → Fin (tcTables nBuf tb) → BufTy
  | .hbm, ⟨0, _⟩ => ⟨S3x512x512, .f32⟩
  | .hbm, ⟨1, _⟩ => ⟨S512x512, .i32⟩
  | .hbm, ⟨2, _⟩ => ⟨S50x3x512x512, .f32⟩
  | .local _ .vmem, ⟨0, _⟩ => ⟨S3x512x512, .f32⟩
  | .local _ .vmem, ⟨1, _⟩ => ⟨S512x512, .i32⟩
  | .local _ .vmem, ⟨2, _⟩ => ⟨S1x3x512x512, .f32⟩
  | .local _ .vmem, ⟨3, _⟩ => ⟨S1x3x512x512, .f32⟩
  | _, _ => ⟨S3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S3x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x512_S512x512_0_0 : ∀ a, (![0, 0] : Fin 2 → Nat) a + S512x512.size a ≤ S512x512.size a
  h_S512x512 : 0 < S512x512.numel
  natLt_1_32 : 1 < 32
  inb_S3x512x512_S3x512x512_0_0_0 : ∀ a, (![0, 0, 0] : Fin 3 → Nat) a + S3x512x512.size a ≤ S3x512x512.size a
  h_S3x512x512 : 0 < S3x512x512.numel
  shapeCasts_S512x512_S1x512x512 : S512x512.ShapeCasts S1x512x512
  broadcasts_S1x512x512_S3x512x512 : S1x512x512.Broadcasts S3x512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S3x512x512_S1x3x512x512 : S3x512x512.ShapeCasts S1x3x512x512
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x512x512.size a ≤ S3x512x512.size a
  hwx0_0 : ∀ i : grid0.Coords, EltTy.bits .f32 = 32 ∨ (Rect.block (s := S3x512x512) S3x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .i32 = 32 ∨ (Rect.block (s := S512x512) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S50x3x512x512.size a
  hwx0_2 : ∀ i : grid0.Coords, EltTy.bits .f32 = 32 ∨ (Rect.block (s := S50x3x512x512) S1x3x512x512.size (cc0_transform_2 i) (hinb0_2 i)).WholeWords (EltTy.packing .f32)

variable [Facts₀]

abbrev win0_0 : Pipeline.Window sig grid0 :=
  Pipeline.Window.ofSpec (Memref.whole main_arg0) S3x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x512x512 : Shape := ⟨3, ![3, 512, 512]⟩
abbrev S512x512 : Shape := ⟨2, ![512, 512]⟩
abbrev S50 : Shape := ⟨1, ![50]⟩
abbrev S50x1x1x1 : Shape := ⟨4, ![50, 1, 1, 1]⟩
abbrev S1x1x512x512 : Shape := ⟨4, ![1, 1, 512, 512]⟩
abbrev S50x1x512x512 : Shape := ⟨4, ![50, 1, 512, 512]⟩
abbrev S1x3x512x512 : Shape := ⟨4, ![1, 3, 512, 512]⟩
abbrev S50x3x512x512 : Shape := ⟨4, ![50, 3, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S3x512x512, .f32⟩
  | .hbm, ⟨1, _⟩ => ⟨S512x512, .i32⟩
  | .hbm, ⟨2, _⟩ => ⟨S50, .i32⟩
  | .hbm, ⟨3, _⟩ => ⟨S50x1x1x1, .i32⟩
  | .hbm, ⟨4, _⟩ => ⟨S1x1x512x512, .i32⟩
  | .hbm, ⟨5, _⟩ => ⟨S50x1x512x512, .i32⟩
  | .hbm, ⟨6, _⟩ => ⟨S50x1x512x512, .i32⟩
  | .hbm, ⟨7, _⟩ => ⟨S50x1x512x512, .i1⟩
  | .hbm, ⟨8, _⟩ => ⟨S50x1x512x512, .f32⟩
  | .hbm, ⟨9, _⟩ => ⟨S1x3x512x512, .f32⟩
  | .hbm, ⟨10, _⟩ => ⟨S50x3x512x512, .f32⟩
  | .hbm, ⟨11, _⟩ => ⟨S50x3x512x512, .f32⟩
  | .hbm, ⟨12, _⟩ => ⟨S50x3x512x512, .f32⟩
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  bcast_S50_S50x1x1x1_0 : S50.BroadcastsInDim S50x1x1x1 (![0] : Fin 1 → Fin S50x1x1x1.rank)
  bcast_S512x512_S1x1x512x512_2_3 : S512x512.BroadcastsInDim S1x1x512x512 (![2, 3] : Fin 2 → Fin S1x1x512x512.rank)
  bcast_S1x1x512x512_S50x1x512x512_0_1_2_3 : S1x1x512x512.BroadcastsInDim S50x1x512x512 (![0, 1, 2, 3] : Fin 4 → Fin S50x1x512x512.rank)
  bcast_S50x1x1x1_S50x1x512x512_0_1_2_3 : S50x1x1x1.BroadcastsInDim S50x1x512x512 (![0, 1, 2, 3] : Fin 4 → Fin S50x1x512x512.rank)
  bcast_S3x512x512_S1x3x512x512_1_2_3 : S3x512x512.BroadcastsInDim S1x3x512x512 (![1, 2, 3] : Fin 3 → Fin S1x3x512x512.rank)
  bcast_S1x3x512x512_S50x3x512x512_0_1_2_3 : S1x3x512x512.BroadcastsInDim S50x3x512x512 (![0, 1, 2, 3] : Fin 4 → Fin S50x3x512x512.rank)
  bcast_S50x1x512x512_S50x3x512x512_0_1_2_3 : S50x1x512x512.BroadcastsInDim S50x3x512x512 (![0, 1, 2, 3] : Fin 4 → Fin S50x3x512x512.rank)

variable [Facts₀]

class Facts : Prop extends Facts₀ where

variable [Facts]
-- ==== Proof.LibPlaneBroadcast.lean ====
/-
  One plane broadcast over many, read at an index given by coordinates.

  A `[1, a, b]` array broadcast along its leading unit axis to `[m, a, b]` holds, in every one of its `m` planes, the
  operand's single plane: entry `(k, i, j)` of the result is entry `(0, i, j)` of the operand, whatever `k` is. The
  broadcast matches axes from the right, so the two trailing coordinates pass through (an axis of extent one can only
  hold the coordinate zero, which is what the broadcast puts there) and the leading coordinate is forgotten. This is the
  rank-3 companion of the row broadcast `[1, b] → [a, b]`; it is generic in the three extents.
-/
import Idealize.ShloMosaic.Lib.Pipeline.Value
import Idealize.ShloMosaic.Lib.ValueIdx

namespace Cert.Lib.PlaneBroadcast

open Idealize.ShloMosaic Idealize.ShloMosaic.ValueIdx

variable {α : Type}

/-- A `[1, a, b]` array broadcast to `[m, a, b]` reads, at `(k, i, j)`, the operand's one plane at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.Lib.PlaneBroadcast
-- ==== Proof.Routed.lean ====
/-
  The routed image: what both programs compute, as one function of the two argument arrays.

  The arguments are an image `img` of 3 channels over a 512 × 512 grid of pixels (extended reals) and a label map `lab`
  giving each pixel a 32-bit word. The result has 50 slots, one per class `k = 0, …, 49`; slot `k` holds the image
  multiplied, pixel by pixel, by the indicator of "this pixel's label is `k`":

      routed img lab (k, c, h, w) = img (c, h, w) · [lab (h, w) = k].

  The indicator is 1 or 0 as an extended real. The product is NOT simplified to "the pixel or zero": on the extended reals
  an infinite pixel times 0 is whatever the product says it is, and both programs form exactly this product, in this
  order, so nothing about the pixel's finiteness is ever needed.

  The two programs spell the indicator differently. Both compare the label with the class number as 32-bit words and get
  one bit. One widens that bit to a 32-bit word with zeros and converts the word to a float as a SIGNED integer; the other
  converts the bit itself as an UNSIGNED integer. A bit widened with zeros is the word 0 or 1, whose signed reading is
  0 or 1 again: the two conversions agree (`signed_widened_bit`).
-/
import Idealize.ShloMosaic.PureOps.Ideal
import Idealize.ShloMosaic.Lib.ValueIdx

noncomputable section

namespace Cert.Routed

open Idealize.ShloMosaic Idealize.ShloMosaic.ValueIdx

/-- The indicator of "the label word `lab` is class `k`", as an extended real: the one-bit result of comparing the two
    32-bit words for equality, read as the natural number 0 or 1. -/
def indicator (lab : BitVec 32) (k : ℕ) : EReal :=
  (((IntOp.cmpi .eq lab (BitVec.ofNat 32 k)).toNat : ℝ) : EReal)

/-- Entry `(k, c, h, w)` of the routed image: channel `c` of pixel `(h, w)` times the indicator that the pixel's label
    is `k`. -/
def routedAt (img : FVec Ideal ⟨3, ![3, 512, 512]⟩ .f32) (lab : IVec ⟨2, ![512, 512]⟩ 32)
    (k : Fin 50) (c : Fin 3) (h : Fin 512) (w : Fin 512) : EReal :=
  img (ix3 c h w) * indicator (lab (ix2 h w)) k.val

/-- The routed image as one array: its entry at an index is `routedAt` at the index's four coordinates. -/
def routed (img : FVec Ideal ⟨3, ![3, 512, 512]⟩ .f32) (lab : IVec ⟨2, ![512, 512]⟩ 32) :
    FVec Ideal ⟨4, ![50, 3, 512, 512]⟩ .f32 :=
  fun i => routedAt img lab (i 0) (i 1) (i 2) (i 3)

/-- At an index written by its coordinates the routed image is `routedAt` of them. -/
theorem routed_ix4 (img : FVec Ideal ⟨3, ![3, 512, 512]⟩ .f32) (lab : IVec ⟨2, ![512, 512]⟩ 32)
    (k : Fin 50) (c : Fin 3) (h : Fin 512) (w : Fin 512) :
    routed img lab (ix4 k c h w) = routedAt img lab k c h w := rfl

/-- A bit widened with zeros to a 32-bit word and read as a signed integer is the bit read as a natural number: the
    word is 0 or 1, far below the sign bit. -/
theorem signed_widened_bit (b : BitVec 1) : (b.setWidth 32).toInt = (b.toNat : ℤ) := by
  rcases BitVec.eq_zero_or_eq_one b with h | h <;> subst h <;> decide

/-- So the signed conversion of the widened bit and the unsigned conversion of the bit are one extended real. -/
theorem signed_widened_bit_real (b : BitVec 1) : ((((b.setWidth 32).toInt : ℤ) : ℝ) : EReal) = ((b.toNat : ℝ) : EReal) := by
  rw [signed_widened_bit]; rfl

end Cert.Routed

end
-- ==== Proof.Stored.lean ====
/-
  What the kernel body stores, entry by entry.

  At grid point `k` the body loads the whole label map and the whole image, and stores ONE value through the whole
  `[1, 3, 512, 512]` block of the output. That value is built in five steps: the point's number `k`, as a 32-bit word, is
  splat over the 512 × 512 pixels; the label map is compared with it for equality, giving one bit per pixel; the bit is
  widened to 32 bits with zeros and converted to a float as a signed integer; the resulting 512 × 512 plane gets a leading
  unit axis and is broadcast over the 3 channels; and the image is multiplied by it, channel by channel. A final cast puts
  the unit slot axis in front. Read at `(0, c, h, w)`: the two casts only re-spell the index, the broadcast forgets the
  channel, every other step is pointwise, and what is left is

      img (c, h, w) · [lab (h, w) = k]

  with the indicator in its signed-widened spelling, which is the unsigned one (`Cert.Routed.signed_widened_bit_real`).
-/
import proofs.«141406_j78426102825319_1_alg».proof.Proof.Gen.KernelIdeal.Skeleton
import proofs.«141406_j78426102825319_1_alg».proof.Proof.LibPlaneBroadcast
import proofs.«141406_j78426102825319_1_alg».proof.Proof.Routed
import Idealize.ShloMosaic.Lib.ValueLayout

noncomputable section

namespace Cert.KernelIdeal.Stored

open Cert.KernelIdeal Cert.KernelIdeal.Gen Idealize.ShloMosaic Idealize.ShloMosaic.ValueIdx

/-- The stored value at `(u, c, h, w)` (`u` the unit slot coordinate) at grid point `i`, whose number is `k`, is channel
    `c` of pixel `(h, w)` of the loaded image times the indicator that the loaded label there is `k`. -/
theorem stored_ix4 (i : grid0.Coords) (k : Fin 50) (hk : (i 0).val = k.val)
    (lab : Vec Ideal S512x512 .i32) (img : Vec Ideal S3x512x512 .f32)
    (u : Fin 1) (c : Fin 3) (h : Fin 512) (w : Fin 512) :
    k0_pay1 (F := Ideal) i lab img (ix4 u c h w) = Cert.Routed.routedAt img lab k c h w := by
  unfold k0_pay1
  dsimp only
  -- the cast that puts the unit slot axis in front
  refine (shapeCast_abc_1abc_apply _ _ u c h w).trans ?_
  -- the product, at (c, h, w)
  refine (mulf_apply _ _ _).trans ?_
  unfold Cert.Routed.routedAt
  refine congrArg (fun x => img (ix3 c h w) * x) ?_
  -- the broadcast over the channels forgets c; the cast that added the unit axis re-spells (0, h, w) as (h, w)
  refine (Cert.Lib.PlaneBroadcast.broadcastTo_1ab_mab_apply _ _ c h w).trans ?_
  refine (shapeCast_ab_1ab_apply _ _ (0 : Fin 1) h w).trans ?_
  -- the signed conversion of the widened comparison bit is the indicator, the point's number being k
  refine (Cert.Routed.signed_widened_bit_real _).trans ?_
  unfold Cert.Routed.indicator
  rw [hk]
  rfl

end Cert.KernelIdeal.Stored

end
-- ==== Proof.Slots.lean ====
/-
  From one slot per grid point to the whole output array.

  The output array has 50 slots of shape `[3, 512, 512]`. Grid point `k` (the grid is the one axis `k = 0, …, 49`) writes
  back exactly slot `k`: the output's block index at point `k` is `(k, 0, 0, 0`) with block shape `[1, 3, 512, 512]`, so an
  index `(s, c, h, w)` of the array lies in point `k`'s block exactly when `s = k`. Both inputs are staged whole at every
  point (their block index is zero on every axis), so the blocks the body loads ARE the image and the label map.

  Hence what point `k` writes back is block `k` of the routed image (`Cert.Routed.routed`) of the two argument arrays:
  entry `(0, c, h, w)` of the stored value is `img (c, h, w) · [lab (h, w) = k]` (`Stored.stored_apply`), and
  `(k, c, h, w)` is where that entry lands. Every index of the array is in the block of the point named by its slot
  coordinate, so the blocks cover the array and the array after the run is the routed image, whole.
-/
import proofs.«141406_j78426102825319_1_alg».proof.Proof.KernelIdealFrameP
import proofs.«141406_j78426102825319_1_alg».proof.Proof.Stored
import Idealize.ShloMosaic.Lib.Pipeline.Value

noncomputable section

namespace Cert.KernelIdeal.Slots

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps, decided over the 50 grid points: both inputs' block index is zero on every axis (each is
    staged whole), and the output's is the point's own coordinate on the slot axis and zero on the other three. -/
theorem index_maps : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 4) = (grid0.coords t 0).val ∧ win0_2.index t (1 : Fin 4) = 0
    ∧ win0_2.index t (2 : Fin 4) = 0 ∧ win0_2.index t (3 : Fin 4) = 0 :=
  (by decide +kernel : ∀ t : Fin grid0.N, _)

/-- Every slot is some point's: for each `q` below 50 a point's output block index is `(q, 0, 0, 0)`. -/
theorem slot_point : ∀ q : Fin 50, ∃ t : Fin cfg0.N, win0_2.index t = ![q.val, 0, 0, 0] :=
  (by decide +kernel : ∀ q : Fin 50, ∃ t : Fin grid0.N, win0_2.index t = ![q.val, 0, 0, 0])

/-- ONE ENTRY OF A POINT'S BLOCK. At point `t`, entry `y` of the value the body stores is the routed image of the two
    argument arrays at the array index that entry lands on: the slot is the point's number, the channel and the pixel
    are `y`'s own, and the loaded blocks are the arrays themselves. -/
theorem block_entry (c : Dev nD) (t : Fin cfg0.N) (y : S1x3x512x512.Idx) :
    k0_pay1 (grid0.coords t) (iblk m c 1 t) (iblk m c 0 t) y
      = Cert.Routed.routed (V m c main_arg0) (V m c main_arg1) (((cfg0.win 2).blk t).view.emb y) := by
  obtain ⟨u, ch, h, w, rfl⟩ : ∃ (u : Fin 1) (ch : Fin 3) (h : Fin 512) (w : Fin 512), y = ix4 u ch h w :=
    ⟨y 0, y 1, y 2, y 3, eq_ix4 y⟩
  obtain ⟨a0, a1, a2, b0, b1, o0, o1, o2, o3⟩ := index_maps t
  -- the point's number, as a number below 50
  obtain ⟨k, hk⟩ : ∃ k : Fin 50, (grid0.coords t 0).val = k.val :=
    ⟨⟨(grid0.coords t 0).val, (grid0.coords t 0).isLt⟩, rfl⟩
  refine (Cert.KernelIdeal.Stored.stored_ix4 (grid0.coords t) k hk (iblk m c 1 t) (iblk m c 0 t) u ch h w).trans ?_
  -- where the entry lands: block index × block size + the coordinate inside the block, axis by axis
  have hz : ((cfg0.win 2).blk t).view.emb (ix4 u ch h w) = ix4 k ch h w := by
    funext a; apply Fin.ext
    match a with
    | ⟨0, _⟩ => show win0_2.index t (0 : Fin 4) * 1 + 1 * u.val = k.val; omega
    | ⟨1, _⟩ => show win0_2.index t (1 : Fin 4) * 3 + 1 * ch.val = ch.val; omega
    | ⟨2, _⟩ => show win0_2.index t (2 : Fin 4) * 512 + 1 * h.val = h.val; omega
    | ⟨3, _⟩ => show win0_2.index t (3 : Fin 4) * 512 + 1 * w.val = w.val; omega
  rw [hz, Cert.Routed.routed_ix4]
  -- the image block is the image, the label block is the label map: both windows' block index is zero
  have himg : iblk m c 0 t (ix3 ch h w) = V m c main_arg0 (ix3 ch h w) := by
    show V m c main_arg0 (((cfg0.win 0).blk t).view.emb (ix3 ch h w)) = _
    refine congrArg _ (funext fun a => Fin.ext ?_)
    match a with
    | ⟨0, _⟩ => show win0_0.index t (0 : Fin 3) * 3 + 1 * ch.val = ch.val; omega
    | ⟨1, _⟩ => show win0_0.index t (1 : Fin 3) * 512 + 1 * h.val = h.val; omega
    | ⟨2, _⟩ => show win0_0.index t (2 : Fin 3) * 512 + 1 * w.val = w.val; omega
  have hlab : iblk m c 1 t (ix2 h w) = V m c main_arg1 (ix2 h w) := by
    show V m c main_arg1 (((cfg0.win 1).blk t).view.emb (ix2 h w)) = _
    refine congrArg _ (funext fun a => Fin.ext ?_)
    match a with
    | ⟨0, _⟩ => show win0_1.index t (0 : Fin 2) * 512 + 1 * h.val = h.val; omega
    | ⟨1, _⟩ => show win0_1.index t (1 : Fin 2) * 512 + 1 * w.val = w.val; omega
  unfold Cert.Routed.routedAt
  rw [himg, hlab]

/-- WHAT POINT `t` WRITES BACK is block `t` of the routed image of the argument arrays as the region finds them: the
    one store through the whole block leaves its payload, the two loads through whole blocks read the blocks, and the
    payload is read entry by entry (`block_entry`). -/
theorem flushed_eq (c : Dev nD) (t : Fin cfg0.N) :
    (dats m 0 c).flushed 2 t
      = ((cfg0.win 2).blk t).view.read (Elt Ideal) (Cert.Routed.routed (V m c main_arg0) (V m c main_arg1)) := by
  show (cfg0.win 2).cut (grid0.coords t) ((dats m 0 c).after 2 t) = _
  rw [after0_2]
  unfold out0_2
  rw [View.canon_unit_zero zeros4]
  simp only [View.ld_unit_zero (S := S512x512) zeros2, View.ld_unit_zero (S := S3x512x512) zeros3]
  funext j
  exact block_entry m c t j

/-- An index of the array is in point `t`'s block iff each coordinate is in the block's range on its axis. -/
theorem mem_blk (t : Fin cfg0.N) (i : S50x3x512x512.Idx) :
    i ∈ ((cfg0.win 2).blk t).view.set ↔ ∀ a : Fin 4, win0_2.index t a * S1x3x512x512.size a ≤ (i a).val
      ∧ (i a).val < win0_2.index t a * S1x3x512x512.size a + S1x3x512x512.size a := by
  show i ∈ ((View.whole main_v0).slice (win0_2.rect t)).set ↔ _
  rw [View.set_slice_whole, Rect.mem_set_unit]
  exact Iff.rfl

/-- THE BLOCKS COVER THE ARRAY: the index `(s, c, h, w)` is in the block of the point whose output block index is
    `(s, 0, 0, 0)`. -/
theorem covered (i : S50x3x512x512.Idx) :
    ∃ t : Fin cfg0.N, (cfg0.win 2).flush t = true ∧ i ∈ ((cfg0.win 2).blk t).view.set := by
  have h0 : (i 0).val < 50 := (i 0).isLt
  have h1 : (i 1).val < 3 := (i 1).isLt
  have h2 : (i 2).val < 512 := (i 2).isLt
  have h3 : (i 3).val < 512 := (i 3).isLt
  obtain ⟨t, ht⟩ := slot_point ⟨(i 0).val, h0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE ARRAY after the run is the routed image of the two argument arrays as launched. -/
theorem final (c : Dev nD) :
    (dats m 0 c).arrAt 2 cfg0.N
      = Cert.Routed.routed (m ((c : Thread nD τ).loc main_arg0)) (m ((c : Thread nD τ).loc main_arg1)) :=
  (dats m 0 c).arrAt_eq_of_cover 2 (Cert.Routed.routed (V m c main_arg0) (V m c main_arg1))
    (fun t _ => flushed_eq m c t) covered

/-- THE KERNEL'S RUN, read: every weakly fair execution terminates with the routed image of the arguments in the output
    array and both arguments as launched (each input window stages its array and never writes it back). -/
theorem run : θ_run defs (onTc (τ := τ) (main (F := Ideal))) ⟨m, fun _ => 0, ρ⟩ fun r => ∀ c : Dev nD,
      r.2.mem ((c : Thread nD τ).loc main_v0)
          = Cert.Routed.routed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Slots

end
-- ==== Proof.Reference.lean ====
/-
  The reference computes the routed image.

  The reference builds the class numbers `0, …, 49` as a column (an iota over 50 entries, given three unit axes), lays
  the label map under one slot and one channel axis, broadcasts both to `[50, 1, 512, 512]`, compares them for equality,
  converts the resulting bit to a float as an unsigned integer, broadcasts that over the 3 channels, and multiplies the
  image — itself broadcast over the 50 slots — by it. Every one of these steps either is pointwise or only re-spells an
  index: read at `(k, c, h, w)`, the image factor is `img (c, h, w)`, the label is `lab (h, w)`, the class number is the
  word of `k`, and the product is

      img (c, h, w) · [lab (h, w) = k],

  the routed image (`Cert.Routed.routed`), with the indicator in the unsigned spelling that `Cert.Routed.indicator` uses.
-/
import proofs.«141406_j78426102825319_1_alg».proof.Proof.Gen.ReferenceIdeal.Read
import proofs.«141406_j78426102825319_1_alg».proof.Proof.Routed

noncomputable section

namespace Cert.ReferenceIdeal.Routing

open Cert.ReferenceIdeal Cert.ReferenceIdeal.Read Idealize.ShloMosaic Idealize.ShloMosaic.TcCoe Idealize.SL.Sem
open Idealize.ShloMosaic.ValueIdx

/-- The reference's last stage, as a function of its two arguments, is the routed image: at `(k, c, h, w)` the broadcasts
    read the image at `(c, h, w)`, the label map at `(h, w)` and the iota at `k`. -/
theorem result_is_routed (x0 : FVec Ideal S3x512x512 .f32) (x1 : IVec S512x512 32) :
    val_main_v10 (F := Ideal) x0 x1 = Cert.Routed.routed x0 x1 := by
  funext i
  obtain ⟨k, c, h, w, rfl⟩ : ∃ (k : Fin 50) (c : Fin 3) (h : Fin 512) (w : Fin 512), i = ix4 k c h w :=
    ⟨i 0, i 1, i 2, i 3, eq_ix4 i⟩
  -- where each broadcast chain reads its source
  have himg : idx_main_v7 (idx_main_v8 (ix4 k c h w)) = ix3 c h w :=
    funext fun a => Fin.ext (by match a with | ⟨0, _⟩ => rfl | ⟨1, _⟩ => rfl | ⟨2, _⟩ => rfl)
  have hlab : idx_main_v2 (idx_main_v3 (idx_main_v9 (ix4 k c h w))) = ix2 h w :=
    funext fun a => Fin.ext (by match a with | ⟨0, _⟩ => rfl | ⟨1, _⟩ => rfl)
  rw [val_main_v10_apply, val_main_v8_apply, val_main_v7_apply, val_main_v9_apply, val_main_v6_apply, val_main_v5_apply,
    val_main_v3_apply, val_main_v2_apply, val_main_v4_apply, val_main_v1_apply, val_main_v0_apply, himg, hlab]
  rfl

/-- THE REFERENCE'S RUN: it ends with the routed image of its arguments in its result and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10)
          = Cert.Routed.routed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h c).1.trans (val_main_v10_eq _ _)).trans (result_is_routed _ _), (h c).2.2.1, (h c).2.1⟩)
    (Cert.ReferenceIdeal.Value.run (F := Ideal) m ρ)

end Cert.ReferenceIdeal.Routing

end
-- ==== Proof.lean ====
/-
  The kernel routes an image into 50 class slots by a label map, and so does the reference.

  Arguments: an image `img` of 3 channels over 512 × 512 pixels, and a map `lab` giving each pixel a 32-bit label. Both
  programs return the array

      out (k, c, h, w) = img (c, h, w) · [lab (h, w) = k]        k = 0, …, 49

  (`Cert.Routed.routed`: the indicator is 1 or 0 as an extended real, and the product is formed as written, also at an
  infinite pixel) together with the label map itself, unchanged.

  The kernel runs over a grid of 50 points. At point `k` it stages the whole image and the whole label map, compares the
  labels with `k`, turns the bit into a float, and stores the image times that plane as slot `k` of the output
  (Proof/Stored.lean reads the stored value entry by entry). The 50 slots are disjoint and tile the output, so after the
  run the output array is the routed image, whole (Proof/Slots.lean). The reference forms the same product in one piece
  from broadcasts of the image, of the label map and of the class numbers `0, …, 49` (Proof/Reference.lean reads it
  entry by entry). The two spell the indicator differently — a bit widened with zeros and read signed, against the bit
  read unsigned — and these are the same number (Proof/Routed.lean). No finiteness of the image is used: the two sides
  are the same product of the same two factors at every entry.

  The kernel's run and the frame of both the word-level and the idealized kernel come from Proof/KernelFrameP.lean and
  Proof/KernelIdealFrameP.lean; the idealization rewrote no operation, so there is nothing to preserve.
-/
import proofs.«141406_j78426102825319_1_alg».proof.Defs
import proofs.«141406_j78426102825319_1_alg».proof.Proof.Gen.Kernel
import proofs.«141406_j78426102825319_1_alg».proof.Proof.Gen.KernelIdeal
import proofs.«141406_j78426102825319_1_alg».proof.Proof.Gen.ReferenceIdeal
import proofs.«141406_j78426102825319_1_alg».proof.Proof.Gen.Pre_finite_inputs
import proofs.«141406_j78426102825319_1_alg».proof.Proof.KernelFrameP
import proofs.«141406_j78426102825319_1_alg».proof.Proof.Slots
import proofs.«141406_j78426102825319_1_alg».proof.Proof.Reference
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.GenP.frame m ρ

/-- So does the idealized kernel. -/
theorem frame_kernel_ideal : Cert.frame_KernelIdeal := fun m ρ _ => Cert.KernelIdeal.GenP.frame m ρ

/-- So does the reference: its run, with the result forgotten. -/
theorem frame_reference : Cert.frame_ReferenceIdeal := fun m ρ _ =>
  (θ_run Cert.ReferenceIdeal.defs _ _).mono (fun _ h c => ⟨(h c).2.1, (h c).2.2⟩)
    (Cert.ReferenceIdeal.Routing.run m ρ)

/-- The idealization rewrote nothing. -/
theorem preserves : Cert.preserves_Kernel_KernelIdeal := trivial

/-- From memories that agree on the image and the label map, both programs end with the routed image of those two
    arrays as their first result and the label map as their second. -/
theorem algebraic : Cert.algebraic_KernelIdeal_ReferenceIdeal := by
  intro m ρ m' ρ' _ hagree
  refine ⟨fun c => Cert.Routed.routed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2, (h c).2.1, (h c).2.2⟩)
      (Cert.KernelIdeal.Slots.run m ρ)
  · refine (θ_run Cert.ReferenceIdeal.defs _ _).mono (fun _ h c => ⟨?_, ?_, (h c).2.1, (h c).2.2⟩)
      (Cert.ReferenceIdeal.Routing.run m' ρ')
    · rw [(h c).1, (hagree c).1, (hagree c).2]
    · rw [(h c).2.2, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
